-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 121
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S1x200000, .i32⟩
  | .hbm, ⟨89, _⟩ => ⟨S200000, .i32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x128, .f32⟩
  | .hbm, ⟨101, _⟩ => ⟨S_, .i32⟩
  | .hbm, ⟨102, _⟩ => ⟨S200000, .i32⟩
  | .hbm, ⟨103, _⟩ => ⟨S200000, .i1⟩
  | .hbm, ⟨104, _⟩ => ⟨S_, .i32⟩
  | .hbm, ⟨105, _⟩ => ⟨S200000, .i32⟩
  | .hbm, ⟨106, _⟩ => ⟨S200000, .i32⟩
  | .hbm, ⟨107, _⟩ => ⟨S200000, .i32⟩
  | .hbm, ⟨108, _⟩ => ⟨S200000x1, .i32⟩
  | .hbm, ⟨109, _⟩ => ⟨S200000x128, .f32⟩
  | .hbm, ⟨110, _⟩ => ⟨S200000x128, .f32⟩
  | .hbm, ⟨111, _⟩ => ⟨S_, .f32⟩
  | .hbm, ⟨112, _⟩ => ⟨S200000, .f32⟩
  | .hbm, ⟨113, _⟩ => ⟨S200000, .f32⟩
  | .hbm, ⟨114, _⟩ => ⟨S200000, .f32⟩
  | .hbm, ⟨115, _⟩ => ⟨S_, .f32⟩
  | .hbm, ⟨116, _⟩ => ⟨S200000, .f32⟩
  | .hbm, ⟨117, _⟩ => ⟨S200000, .f32⟩
  | .hbm, ⟨118, _⟩ => ⟨S_, .f32⟩
  | .hbm, ⟨119, _⟩ => ⟨S200000, .f32⟩
  | .hbm, ⟨120, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S1x200000, .i32⟩
  | 127 => ⟨S200000, .i32⟩
  | _ => ⟨S50000x128, .f32⟩

abbrev hbmTy0_1 (i : Nat) : BufTy := match i % 128 with
  | 0 => ⟨S1x200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x128, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x128, .f32⟩
  | 20 => ⟨S200000x128, .f32⟩
  | 21 => ⟨S_, .f32⟩
  | 22 => ⟨S200000, .f32⟩
  | 23 => ⟨S200000, .f32⟩
  | 24 => ⟨S200000, .f32⟩
  | 25 => ⟨S_, .f32⟩
  | 26 => ⟨S200000, .f32⟩
  | 27 => ⟨S200000, .f32⟩
  | 28 => ⟨S_, .f32⟩
  | 29 => ⟨S200000, .f32⟩
  | 30 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_25 : Ref sig .tc := ⟨.hbm, 153, rfl⟩
abbrev main_v113 : Ref sig .tc := ⟨.hbm, 154, rfl⟩
abbrev main_v114 : Ref sig .tc := ⟨.hbm, 155, rfl⟩
abbrev main_cst_26 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.KernelRun.lean ====
/-
  The idealized kernel's run with its result named.

  @main is three stretches of host operations, the first transform's region, a stretch, the second transform's
  region and a last stretch. Its run passes through the buffer contents at each of those seven boundaries; at the
  return every unscoped buffer of a core holds the last boundary's contents. So beside the seven argument arrays,
  which end as launched, the result buffer ends at the last boundary's contents of that buffer: the last stretch's
  operations applied to what the second region leaves.
-/
import proofs.«125294_j33964601377214_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v89) = W7 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v89 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Result

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.BodyEntries.lean ====
/-
  What one grid point of each transform kernel stores, read at an entry.

  A grid point holds a block of 5000 rows of the node features (x0), the bias laid out as a 1 × 128 row, and the
  whole 128 × 128 weight matrix. The first kernel stores (x0 + row)·w, the second max(x0 + row, 0.0)·w; the
  roundings to a shorter float format on the way into the matrix unit are the identity on the extended reals, and
  the matrix unit accumulating into zeros is the plain sum over the contracted feature.
-/
import proofs.«125294_j33964601377214_2_alg».proof.Proof.Gen.KernelIdeal.Skeleton
import proofs.«125294_j33964601377214_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyEntries

open Cert.KernelIdeal Cert.KernelIdeal.Gen Idealize.ShloMosaic Idealize.ShloMosaic.ValueIdx

/-! The block product's dimension numbers: one contracted axis of extent 128, the left operand indexed (p, k),
    the right (k, q). -/

theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- THE FIRST KERNEL'S STORE at (p, q): ∑ k, (x0 (p, k) + row (0, k)) · w (k, q). -/
theorem pay0_apply (x0 : FVec Ideal S5000x128 .f32) (x1 : FVec Ideal S1x128 .f32) (x6 : FVec Ideal S128x128 .f32)
    (p : Fin 5000) (q : Fin 128) :
    k0_pay1 (F := Ideal) x0 x1 x6 (ix2 p q)
      = ∑ k : Fin 128, ((x0 (ix2 p k) : EReal) + x1 (ix2 (0 : Fin 1) k)) * x6 (ix2 k q) := by
  unfold k0_pay1
  refine (Cert.PlainDot.matmul_zero_apply dot_S5000x128_S128x128_S5000x128_1_0_0_1_n_n rfl rfl dot_l0 dot_l1 dot_r0 dot_r1
    none _ _ p q).trans ?_
  refine Finset.sum_congr rfl fun k _ => ?_
  rw [truncf_apply, truncf_apply, addf_apply, broadcastTo_1b_ab_apply, shapeCast_self]

/-- THE SECOND KERNEL'S STORE at (p, q): ∑ k, max (x0 (p, k) + row (0, k)) 0.0 · w (k, q). -/
theorem pay1_apply (x0 : FVec Ideal S5000x128 .f32) (x2 : FVec Ideal S1x128 .f32) (x9 : FVec Ideal S128x128 .f32)
    (p : Fin 5000) (q : Fin 128) :
    k1_pay1 (F := Ideal) x0 x2 x9 (ix2 p q)
      = ∑ k : Fin 128, max ((x0 (ix2 p k) : EReal) + x2 (ix2 (0 : Fin 1) k)) (Ideal.ofBits .f32 0x00000000#32) * x9 (ix2 k q) := by
  unfold k1_pay1
  refine (Cert.PlainDot.matmul_zero_apply dot_S5000x128_S128x128_S5000x128_1_0_0_1_n_n rfl rfl dot_l0 dot_l1 dot_r0 dot_r1
    none _ _ p q).trans ?_
  refine Finset.sum_congr rfl fun k _ => ?_
  rw [truncf_apply, truncf_apply, maximumf_apply, addf_apply, broadcastTo_1b_ab_apply, shapeCast_self, shapeCast_self,
    broadcast_apply]
  rfl

end Cert.KernelIdeal.BodyEntries

end
-- ==== Proof.LayerSpec.lean ====
/-
  The two dense transforms of the network, entry by entry on the extended reals.

  Both graph-convolution layers first transform every node's 128 features by a 128 × 128 weight matrix.
  Layer 1 multiplies the node features by the weights as they are; written with a bias row r added first it is
  (a + r)·w, and with r = 0 that is a·w. Layer 2 adds the first layer's bias to the aggregated features,
  rectifies, and only then multiplies: max(a + r, z)·w with z the zero the rectifier compares against.
  Entry (p, q) of either is a sum over the 128 contracted features k.
-/
import Idealize.ShloMosaic.Lib.ValueIdx
import Idealize.ShloMosaic.PureOps.Ideal.Laws

noncomputable section

open scoped BigOperators

namespace Cert.LayerSpec

open Idealize.ShloMosaic Idealize.ShloMosaic.ValueIdx

/-- Entry i of (a + r)·w: row (i 0) of a, shifted by the bias row r, against column (i 1) of w. -/
def biasedProduct {n : Nat} (a : (⟨2, ![n, 128]⟩ : Shape).Idx → EReal) (r : (⟨2, ![1, 128]⟩ : Shape).Idx → EReal)
    (w : (⟨2, ![128, 128]⟩ : Shape).Idx → EReal) : (⟨2, ![n, 128]⟩ : Shape).Idx → EReal :=
  fun i => ∑ k : Fin 128, (a (ix2 (⟨(i 0).val, idx2_lt0 i⟩ : Fin n) k) + r (ix2 (0 : Fin 1) k))
    * w (ix2 k (⟨(i 1).val, idx2_lt1 i⟩ : Fin 128))

/-- Entry i of max(a + r, z)·w: the same row, shifted and rectified against z, against column (i 1) of w. -/
def rectifiedProduct {n : Nat} (z : EReal) (a : (⟨2, ![n, 128]⟩ : Shape).Idx → EReal)
    (r : (⟨2, ![1, 128]⟩ : Shape).Idx → EReal) (w : (⟨2, ![128, 128]⟩ : Shape).Idx → EReal) :
    (⟨2, ![n, 128]⟩ : Shape).Idx → EReal :=
  fun i => ∑ k : Fin 128, max (a (ix2 (⟨(i 0).val, idx2_lt0 i⟩ : Fin n) k) + r (ix2 (0 : Fin 1) k)) z
    * w (ix2 k (⟨(i 1).val, idx2_lt1 i⟩ : Fin 128))

theorem biasedProduct_ix2 {n : Nat} (a : (⟨2, ![n, 128]⟩ : Shape).Idx → EReal) (r : (⟨2, ![1, 128]⟩ : Shape).Idx → EReal)
    (w : (⟨2, ![128, 128]⟩ : Shape).Idx → EReal) (p : Fin n) (q : Fin 128) :
    biasedProduct a r w (ix2 p q) = ∑ k : Fin 128, (a (ix2 p k) + r (ix2 (0 : Fin 1) k)) * w (ix2 k q) := rfl

theorem rectifiedProduct_ix2 {n : Nat} (z : EReal) (a : (⟨2, ![n, 128]⟩ : Shape).Idx → EReal)
    (r : (⟨2, ![1, 128]⟩ : Shape).Idx → EReal) (w : (⟨2, ![128, 128]⟩ : Shape).Idx → EReal) (p : Fin n) (q : Fin 128) :
    rectifiedProduct z a r w (ix2 p q) = ∑ k : Fin 128, max (a (ix2 p k) + r (ix2 (0 : Fin 1) k)) z * w (ix2 k q) := rfl

/-- With a bias row of zeros the biased product is the plain product a·w: x + 0 = x on every extended real. -/
theorem biasedProduct_zero {n : Nat} (a : (⟨2, ![n, 128]⟩ : Shape).Idx → EReal) (r : (⟨2, ![1, 128]⟩ : Shape).Idx → EReal)
    (w : (⟨2, ![128, 128]⟩ : Shape).Idx → EReal) (hr : ∀ k : Fin 128, r (ix2 (0 : Fin 1) k) = 0) (p : Fin n) (q : Fin 128) :
    biasedProduct a r w (ix2 p q) = ∑ k : Fin 128, a (ix2 p k) * w (ix2 k q) := by
  rw [biasedProduct_ix2]
  refine Finset.sum_congr rfl fun k _ => ?_
  rw [hr k, add_zero]

end Cert.LayerSpec

end
-- ==== Proof.Transform0Value.lean ====
/-
  The first transform's result array: the ten row blocks the grid points write back make up (x + row)·w.

  Grid point t is handed rows 5000·t … 5000·t + 4999 of the node features, the whole weight matrix and the whole
  bias row, and writes back the same rows of the result. What it writes is the block of ONE whole-array function —
  entry (n, q) = ∑ k (x (n, k) + row (0, k)) · w (k, q) — and the ten blocks tile the 50000 rows, so the array the
  region leaves IS that function.
-/
import proofs.«125294_j33964601377214_2_alg».proof.Proof.Gen.KernelIdeal.Frame
import proofs.«125294_j33964601377214_2_alg».proof.Proof.BodyEntries
import proofs.«125294_j33964601377214_2_alg».proof.Proof.LayerSpec
import Idealize.ShloMosaic.Lib.Pipeline.Value

set_option maxRecDepth 16384

noncomputable section

open scoped BigOperators

namespace Cert.KernelIdeal.Transform0

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered
variable (V : (c : Dev nD) → (b : Ref sig .tc) → Buf (Elt Ideal) ((c : Thread nD τ).loc b))

theorem zero_origin : (![0, 0] : Fin 2 → Nat) = fun _ => 0 := funext fun a => by fin_cases a <;> rfl

/-- The block index maps over the ten grid points: point t takes row block t of the features and of the result,
    and always the one block of the weights and of the bias row. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against the whole-array specification: entry (p, q) of a block whose rows are rows
    P, P+1, … of the feature array A, whose bias row is R and whose weights are W, is entry (P, q) of the layer. -/
theorem block_entry (A : (⟨2, ![50000, 128]⟩ : Shape).Idx → EReal) (R : (⟨2, ![1, 128]⟩ : Shape).Idx → EReal)
    (W : (⟨2, ![128, 128]⟩ : Shape).Idx → EReal)
    (x0 : FVec Ideal S5000x128 .f32) (x2 : FVec Ideal S1x128 .f32) (x1 : FVec Ideal S128x128 .f32)
    (p : Fin 5000) (q : Fin 128) (P : Fin 50000)
    (h0 : ∀ k : Fin 128, x0 (ix2 p k) = A (ix2 P k))
    (h2 : ∀ k : Fin 128, x2 (ix2 (0 : Fin 1) k) = R (ix2 (0 : Fin 1) k))
    (h1 : ∀ k : Fin 128, x1 (ix2 k q) = W (ix2 k q)) :
    k0_pay1 (F := Ideal) x0 x2 x1 (ix2 p q) = Cert.LayerSpec.biasedProduct A R W (ix2 P q) := by
  rw [Cert.KernelIdeal.BodyEntries.pay0_apply, Cert.LayerSpec.biasedProduct_ix2]
  refine Finset.sum_congr rfl fun k _ => ?_
  rw [h0 k, h2 k, h1 k]

/-- WHAT POINT t WRITES BACK is block t of the layer of the arrays as the region finds them. -/
theorem flushed_eq (c : Dev nD) (t : Fin cfg0.N) :
    (dat0 V c).flushed 3 t = ((cfg0.win 3).blk t).view.read (Elt Ideal)
      (Cert.LayerSpec.biasedProduct (V c main_arg0) (V c main_v31) (V c main_arg3)) := by
  show (cfg0.win 3).cut (grid0.coords t) ((dat0 V c).after 3 t) = _
  rw [after0_3]
  unfold out0_3
  rw [View.canon_unit_zero zero_origin]
  simp only [View.ld_unit_zero (S := S5000x128) zero_origin, View.ld_unit_zero (S := S1x128) zero_origin,
    View.ld_unit_zero (S := S128x128) zero_origin]
  obtain ⟨e00, e01, e10, e11, e20, e21, e30, e31⟩ := block_indices t
  have ht : t.val < 10 := by have h := t.isLt; have hN : cfg0.N = 10 := N_0; omega
  funext j
  obtain ⟨p, q, rfl⟩ : ∃ (p : Fin 5000) (q : Fin 128), j = ix2 p q := ⟨j 0, j 1, eq_ix2 j⟩
  have hemb : ((cfg0.win 3).blk t).view.emb (ix2 p q)
      = ix2 (⟨t.val * 5000 + p.val, by have := p.isLt; omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 2 t) (iblk0 V c 1 t) (ix2 p q)
    = Cert.LayerSpec.biasedProduct (V c main_arg0) (V c main_v31) (V c main_arg3) (((cfg0.win 3).blk t).view.emb (ix2 p q))
  rw [hemb]
  refine block_entry _ _ _ _ _ _ p q _ ?_ ?_ ?_
  · intro k
    show V c main_arg0 (((cfg0.win 0).blk t).view.emb (ix2 p k)) = V c main_arg0 (ix2 (⟨t.val * 5000 + p.val, by have := p.isLt; omega⟩ : Fin 50000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_v31 (((cfg0.win 2).blk t).view.emb (ix2 (0 : Fin 1) k)) = V c main_v31 (ix2 (0 : Fin 1) k)
    refine congrArg (V c main_v31) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · intro k
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- The ten row blocks tile the 50000 rows: row r lies in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have htl : (i 0).val / 5000 < cfg0.N := by rw [hN]; omega
  obtain ⟨-, -, -, -, -, -, e30, e31⟩ := block_indices ⟨(i 0).val / 5000, htl⟩
  have e30' : win0_3.index ⟨(i 0).val / 5000, htl⟩ (0 : Fin 2) = (i 0).val / 5000 := e30
  refine ⟨⟨(i 0).val / 5000, htl⟩, flush0_3 _, ?_⟩
  rw [mem_blk]
  intro a
  match a with
  | ⟨0, _⟩ =>
    show win0_3.index ⟨(i 0).val / 5000, htl⟩ (0 : Fin 2) * 5000 ≤ (i 0).val ∧ (i 0).val < win0_3.index ⟨(i 0).val / 5000, htl⟩ (0 : Fin 2) * 5000 + 5000
    omega
  | ⟨1, _⟩ =>
    show win0_3.index ⟨(i 0).val / 5000, htl⟩ (1 : Fin 2) * 128 ≤ (i 1).val ∧ (i 1).val < win0_3.index ⟨(i 0).val / 5000, htl⟩ (1 : Fin 2) * 128 + 128
    omega

/-- THE RESULT ARRAY after the region: the layer of the arrays as the region finds them, entry by entry. -/
theorem final (c : Dev nD) :
    (dat0 V c).arrAt 3 cfg0.N = Cert.LayerSpec.biasedProduct (V c main_arg0) (V c main_v31) (V c main_arg3) :=
  (dat0 V c).arrAt_eq_of_cover 3 _ (fun t _ => flushed_eq V c t) cover

end Cert.KernelIdeal.Transform0

end
-- ==== Proof.LibHostResults.lean ====
/-
  A reusable general tactic: reading a line of host operations.

  Reading a line of host operations: what one buffer holds after the line, as the operations' functions of what the
  buffers held before it. One pass rewrites every operation's result at its own buffer and at the others; a second
  pass, by plain rewriting, reaches the places the first cannot (the pieces of a concatenation).
-/
import Idealize.ShloMosaic.Lib.StableHlo.Run

namespace Cert.HostLine

open Idealize.ShloMosaic Idealize.ShloMosaic.StableHlo

/-- Open `after ops V (Proc.devRef .tc r)` for a literal line `ops` into the operations' functions of `V`. -/
macro "host_results" : tactic =>
  `(tactic| (after_results_simp
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Cert.HostLine
-- ==== Proof.Stage0.lean ====
/-
  Up to the first transform: what the kernel's program holds when its first region is entered, and what that
  region leaves, against the reference's stages.

  Before the first region the kernel's host operations compute exactly what the reference computes first: the
  source and destination columns with the self loops appended, and the symmetric normalisation
  norm = d[src] · d[dst], d = where(deg > 0, rsqrt deg, 0). They come in three stretches — up to the comparison and
  the reciprocal root, the `where`, and the gathers — and each stretch is read from the contents the one before it
  leaves, stage by stage. The region's bias operand is a row of zeros, so the region's result (x + 0)·w1 is the
  reference's product x·w1: x + 0 = x on every extended real.
-/
import proofs.«125294_j33964601377214_2_alg».proof.Proof.Gen.KernelIdeal.Frame
import proofs.«125294_j33964601377214_2_alg».proof.Proof.RefRead
import proofs.«125294_j33964601377214_2_alg».proof.Proof.Transform0Value
import proofs.«125294_j33964601377214_2_alg».proof.Proof.LayerSpec
import proofs.«125294_j33964601377214_2_alg».proof.Proof.LibHostResults
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.HostLine

variable (m : (ℓ : Loc nD τ sig) → Buf (Elt Ideal) ℓ) (ρ : Dev nD → PrngReg)

/-! ## The first stretch: the columns, the degrees compared with zero, their reciprocal roots -/

/-- The source column with the self loops appended. -/
theorem s1_src (c : Dev nD) :
    (W1 m ρ c (Proc.devRef .tc main_v5) : (⟨S850000, .i32⟩ : BufTy).Contents (Elt Ideal))
      = val_main_v5 (F := Ideal) (m ((c : Thread nD τ).loc main_arg1)) := by
  dsimp only [W1, W0, hostOps0]
  host_results
  simp only [val_main_v5, val_main_v4, val_main_v1, val_main_v0]
  all_goals rfl

/-- The destination column with the self loops appended. -/
theorem s1_dst (c : Dev nD) :
    (W1 m ρ c (Proc.devRef .tc main_v6) : (⟨S850000, .i32⟩ : BufTy).Contents (Elt Ideal))
      = val_main_v6 (F := Ideal) (m ((c : Thread nD τ).loc main_arg1)) := by
  dsimp only [W1, W0, hostOps0]
  host_results
  simp only [val_main_v6, val_main_v4, val_main_v3, val_main_v2]
  all_goals rfl

/-- deg > 0, node by node. -/
theorem s1_pos (c : Dev nD) :
    (W1 m ρ c (Proc.devRef .tc main_v12) : (⟨S50000, .i1⟩ : BufTy).Contents (Elt Ideal))
      = val_main_v12 (F := Ideal) (m ((c : Thread nD τ).loc main_arg1)) := by
  dsimp only [W1, W0, hostOps0]
  host_results
  simp only [val_main_v12, val_main_v11, val_main_cst_1, val_main_v10, val_main_v7, val_main_cst, val_main_v9, val_main_v6, val_main_v4, val_main_v3, val_main_v2, val_main_v8, val_main_cst_0]
  all_goals rfl

/-- rsqrt deg, node by node. -/
theorem s1_rsqrt (c : Dev nD) :
    (W1 m ρ c (Proc.devRef .tc main_v13) : (⟨S50000, .f32⟩ : BufTy).Contents (Elt Ideal))
      = val_main_v13 (F := Ideal) (m ((c : Thread nD τ).loc main_arg1)) := by
  dsimp only [W1, W0, hostOps0]
  host_results
  simp only [val_main_v13, val_main_v10, val_main_v7, val_main_cst, val_main_v9, val_main_v6, val_main_v4, val_main_v3, val_main_v2, val_main_v8, val_main_cst_0]
  all_goals rfl

/-- The scalar 0.0 the \`where\` falls back to. -/
theorem s1_zero (c : Dev nD) :
    (W1 m ρ c (Proc.devRef .tc main_cst_2) : (⟨S_, .f32⟩ : BufTy).Contents (Elt Ideal))
      = val_main_cst_2 (F := Ideal) := by
  dsimp only [W1, W0, hostOps0]
  host_results
  simp only [val_main_cst_2]
  all_goals rfl

theorem s1_arg0 (c : Dev nD) : W1 m ρ c (Proc.devRef .tc main_arg0) = m ((c : Thread nD τ).loc main_arg0) := by
  dsimp only [W1, W0, hostOps0]
  host_results
  all_goals rfl

theorem s1_arg2 (c : Dev nD) : W1 m ρ c (Proc.devRef .tc main_arg2) = m ((c : Thread nD τ).loc main_arg2) := by
  dsimp only [W1, W0, hostOps0]
  host_results
  all_goals rfl

theorem s1_arg3 (c : Dev nD) : W1 m ρ c (Proc.devRef .tc main_arg3) = m ((c : Thread nD τ).loc main_arg3) := by
  dsimp only [W1, W0, hostOps0]
  host_results
  all_goals rfl

theorem s1_arg4 (c : Dev nD) : W1 m ρ c (Proc.devRef .tc main_arg4) = m ((c : Thread nD τ).loc main_arg4) := by
  dsimp only [W1, W0, hostOps0]
  host_results
  all_goals rfl

theorem s1_arg5 (c : Dev nD) : W1 m ρ c (Proc.devRef .tc main_arg5) = m ((c : Thread nD τ).loc main_arg5) := by
  dsimp only [W1, W0, hostOps0]
  host_results
  all_goals rfl

theorem s1_arg6 (c : Dev nD) : W1 m ρ c (Proc.devRef .tc main_arg6) = m ((c : Thread nD τ).loc main_arg6) := by
  dsimp only [W1, W0, hostOps0]
  host_results
  all_goals rfl

/-! ## The second stretch: d = where(deg > 0, rsqrt deg, 0) -/

/-- The `where` as a line of three operations, over any contents before it: the buffer it writes holds
    select(pos, root, spread zero) of the three buffers it reads. -/
theorem where_line (V : Valuation τ sig (Elt Ideal))
    (pos : (⟨S50000, .i1⟩ : BufTy).Contents (Elt Ideal)) (root : (⟨S50000, .f32⟩ : BufTy).Contents (Elt Ideal))
    (zero : (⟨S_, .f32⟩ : BufTy).Contents (Elt Ideal))
    (hpos : (V (Proc.devRef .tc main_v12) : (⟨S50000, .i1⟩ : BufTy).Contents (Elt Ideal)) = pos)
    (hroot : (V (Proc.devRef .tc main_v13) : (⟨S50000, .f32⟩ : BufTy).Contents (Elt Ideal)) = root)
    (hzero : (V (Proc.devRef .tc main_cst_2) : (⟨S_, .f32⟩ : BufTy).Contents (Elt Ideal)) = zero) :
    (after hostOps0_1 V (Proc.devRef .tc main_v14) : (⟨S50000, .f32⟩ : BufTy).Contents (Elt Ideal))
      = select pos root (broadcastInDim S50000 ![] bcast_S_S50000 (id zero)) := by
  dsimp only [hostOps0_1]
  host_results
  rw [hpos, hroot, hzero]
  rfl

/-- The degree normaliser d. -/
theorem s2_invsqrt (c : Dev nD) :
    (W2 m ρ c (Proc.devRef .tc main_v14) : (⟨S50000, .f32⟩ : BufTy).Contents (Elt Ideal))
      = val_main_v14 (F := Ideal) (m ((c : Thread nD τ).loc main_arg1)) :=
  (where_line (W1 m ρ c) _ _ _ (s1_pos m ρ c) (s1_rsqrt m ρ c) (s1_zero m ρ c)).trans (by
    simp only [val_main_v14, val_main_call0_v1, val_main_call0_v0]
    all_goals rfl)

theorem s2_src (c : Dev nD) :
    (W2 m ρ c (Proc.devRef .tc main_v5) : (⟨S850000, .i32⟩ : BufTy).Contents (Elt Ideal))
      = val_main_v5 (F := Ideal) (m ((c : Thread nD τ).loc main_arg1)) := by
  dsimp only [W2, hostOps0_1]
  have e0 := s1_src m ρ c
  generalize W1 m ρ c = V at e0 ⊢
  host_results
  all_goals exact e0

theorem s2_dst (c : Dev nD) :
    (W2 m ρ c (Proc.devRef .tc main_v6) : (⟨S850000, .i32⟩ : BufTy).Contents (Elt Ideal))
      = val_main_v6 (F := Ideal) (m ((c : Thread nD τ).loc main_arg1)) := by
  dsimp only [W2, hostOps0_1]
  have e0 := s1_dst m ρ c
  generalize W1 m ρ c = V at e0 ⊢
  host_results
  all_goals exact e0

theorem s2_arg0 (c : Dev nD) : W2 m ρ c (Proc.devRef .tc main_arg0) = m ((c : Thread nD τ).loc main_arg0) := by
  dsimp only [W2, hostOps0_1]
  have e0 := s1_arg0 m ρ c
  generalize W1 m ρ c = V at e0 ⊢
  host_results
  all_goals exact e0

theorem s2_arg2 (c : Dev nD) : W2 m ρ c (Proc.devRef .tc main_arg2) = m ((c : Thread nD τ).loc main_arg2) := by
  dsimp only [W2, hostOps0_1]
  have e0 := s1_arg2 m ρ c
  generalize W1 m ρ c = V at e0 ⊢
  host_results
  all_goals exact e0

theorem s2_arg3 (c : Dev nD) : W2 m ρ c (Proc.devRef .tc main_arg3) = m ((c : Thread nD τ).loc main_arg3) := by
  dsimp only [W2, hostOps0_1]
  have e0 := s1_arg3 m ρ c
  generalize W1 m ρ c = V at e0 ⊢
  host_results
  all_goals exact e0

theorem s2_arg4 (c : Dev nD) : W2 m ρ c (Proc.devRef .tc main_arg4) = m ((c : Thread nD τ).loc main_arg4) := by
  dsimp only [W2, hostOps0_1]
  have e0 := s1_arg4 m ρ c
  generalize W1 m ρ c = V at e0 ⊢
  host_results
  all_goals exact e0

theorem s2_arg5 (c : Dev nD) : W2 m ρ c (Proc.devRef .tc main_arg5) = m ((c : Thread nD τ).loc main_arg5) := by
  dsimp only [W2, hostOps0_1]
  have e0 := s1_arg5 m ρ c
  generalize W1 m ρ c = V at e0 ⊢
  host_results
  all_goals exact e0

theorem s2_arg6 (c : Dev nD) : W2 m ρ c (Proc.devRef .tc main_arg6) = m ((c : Thread nD τ).loc main_arg6) := by
  dsimp only [W2, hostOps0_1]
  have e0 := s1_arg6 m ρ c
  generalize W1 m ρ c = V at e0 ⊢
  host_results
  all_goals exact e0

/-! ## The third stretch: the contents at the first region's entry -/

/-- The symmetric normalisation d[src] · d[dst]. -/
theorem entry0_norm (c : Dev nD) :
    (W3 m ρ c (Proc.devRef .tc main_v29) : (⟨S850000, .f32⟩ : BufTy).Contents (Elt Ideal))
      = val_main_v29 (F := Ideal) (m ((c : Thread nD τ).loc main_arg1)) := by
  dsimp only [W3, hostOps0_2]
  have e0 := s2_invsqrt m ρ c
  have e1 := s2_src m ρ c
  have e2 := s2_dst m ρ c
  generalize W2 m ρ c = V at e0 e1 e2 ⊢
  host_results
  rw [e0, e1, e2]
  simp only [val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  -- the normaliser and the two columns, as they stand: nothing below opens them
  generalize val_main_v14 (F := Ideal) (m ((c : Thread nD τ).loc main_arg1)) = d
  generalize val_main_v5 (F := Ideal) (m ((c : Thread nD τ).loc main_arg1)) = src
  generalize val_main_v6 (F := Ideal) (m ((c : Thread nD τ).loc main_arg1)) = dst
  rfl

theorem entry0_src (c : Dev nD) :
    (W3 m ρ c (Proc.devRef .tc main_v5) : (⟨S850000, .i32⟩ : BufTy).Contents (Elt Ideal))
      = val_main_v5 (F := Ideal) (m ((c : Thread nD τ).loc main_arg1)) := by
  dsimp only [W3, hostOps0_2]
  have e0 := s2_src m ρ c
  generalize W2 m ρ c = V at e0 ⊢
  host_results
  all_goals exact e0

theorem entry0_dst (c : Dev nD) :
    (W3 m ρ c (Proc.devRef .tc main_v6) : (⟨S850000, .i32⟩ : BufTy).Contents (Elt Ideal))
      = val_main_v6 (F := Ideal) (m ((c : Thread nD τ).loc main_arg1)) := by
  dsimp only [W3, hostOps0_2]
  have e0 := s2_dst m ρ c
  generalize W2 m ρ c = V at e0 ⊢
  host_results
  all_goals exact e0

/-- The first region's bias operand: 128 zeros laid out as a row. -/
theorem entry0_row (c : Dev nD) :
    (W3 m ρ c (Proc.devRef .tc main_v31) : (⟨S1x128, .f32⟩ : BufTy).Contents (Elt Ideal))
      = shapeCast S1x128 (broadcastInDim S128 ![] bcast_S_S128 (constant (F := Ideal) S_ .f32 0x00000000#32)) shapeCasts_S128_S1x128 := by
  dsimp only [W3, hostOps0_2]
  generalize W2 m ρ c = V
  host_results
  all_goals rfl

theorem entry0_arg0 (c : Dev nD) : W3 m ρ c (Proc.devRef .tc main_arg0) = m ((c : Thread nD τ).loc main_arg0) := by
  dsimp only [W3, hostOps0_2]
  have e0 := s2_arg0 m ρ c
  generalize W2 m ρ c = V at e0 ⊢
  host_results
  all_goals exact e0

theorem entry0_arg2 (c : Dev nD) : W3 m ρ c (Proc.devRef .tc main_arg2) = m ((c : Thread nD τ).loc main_arg2) := by
  dsimp only [W3, hostOps0_2]
  have e0 := s2_arg2 m ρ c
  generalize W2 m ρ c = V at e0 ⊢
  host_results
  all_goals exact e0

theorem entry0_arg3 (c : Dev nD) : W3 m ρ c (Proc.devRef .tc main_arg3) = m ((c : Thread nD τ).loc main_arg3) := by
  dsimp only [W3, hostOps0_2]
  have e0 := s2_arg3 m ρ c
  generalize W2 m ρ c = V at e0 ⊢
  host_results
  all_goals exact e0

theorem entry0_arg4 (c : Dev nD) : W3 m ρ c (Proc.devRef .tc main_arg4) = m ((c : Thread nD τ).loc main_arg4) := by
  dsimp only [W3, hostOps0_2]
  have e0 := s2_arg4 m ρ c
  generalize W2 m ρ c = V at e0 ⊢
  host_results
  all_goals exact e0

theorem entry0_arg5 (c : Dev nD) : W3 m ρ c (Proc.devRef .tc main_arg5) = m ((c : Thread nD τ).loc main_arg5) := by
  dsimp only [W3, hostOps0_2]
  have e0 := s2_arg5 m ρ c
  generalize W2 m ρ c = V at e0 ⊢
  host_results
  all_goals exact e0

theorem entry0_arg6 (c : Dev nD) : W3 m ρ c (Proc.devRef .tc main_arg6) = m ((c : Thread nD τ).loc main_arg6) := by
  dsimp only [W3, hostOps0_2]
  have e0 := s2_arg6 m ρ c
  generalize W2 m ρ c = V at e0 ⊢
  host_results
  all_goals exact e0

/-- Every entry of the zero row is 0. -/
theorem zero_row_apply (k : Fin 128) :
    shapeCast S1x128 (broadcastInDim S128 ![] bcast_S_S128 (constant (F := Ideal) S_ .f32 0x00000000#32)) shapeCasts_S128_S1x128
      (ix2 (0 : Fin 1) k) = (0 : EReal) := by
  rw [shapeCast_a_1a_apply]
  rw [broadcastInDim_apply (![] : Fin 0 → Fin 1) bcast_S_S128 _ (ix1 k) ix0 (fun a => a.elim0)]
  exact Ideal.ofBits_zero_f32

/-! ## What the first region leaves -/

/-- THE FIRST TRANSFORM'S RESULT is the reference's product x·w1. -/
theorem transform0_eq (c : Dev nD) :
    ((dat0 (V3 m ρ) c).arrAt 3 cfg0.N : (⟨S50000x128, .f32⟩ : BufTy).Contents (Elt Ideal))
      = val_main_v30 (F := Ideal) (m ((c : Thread nD τ).loc main_arg0)) (m ((c : Thread nD τ).loc main_arg3)) := by
  rw [Cert.KernelIdeal.Transform0.final]
  show Cert.LayerSpec.biasedProduct (W3 m ρ c (Proc.devRef .tc main_arg0)) (W3 m ρ c (Proc.devRef .tc main_v31))
    (W3 m ρ c (Proc.devRef .tc main_arg3)) = _
  rw [entry0_arg0, entry0_arg3, entry0_row]
  funext i
  obtain ⟨p, q, rfl⟩ : ∃ (p : Fin 50000) (q : Fin 128), i = ix2 p q := ⟨i 0, i 1, eq_ix2 i⟩
  rw [Cert.LayerSpec.biasedProduct_zero _ _ _ zero_row_apply, val_main_v30_apply]
  refine Finset.sum_congr rfl fun k _ => ?_
  have el : lidx_main_v30 (ix2 p q) k = ix2 p k := funext fun a => Fin.ext (by
    match a with
    | ⟨0, _⟩ => rfl
    | ⟨1, _⟩ => rfl)
  have er : ridx_main_v30 (ix2 p q) k = ix2 k q := funext fun a => Fin.ext (by
    match a with
    | ⟨0, _⟩ => rfl
    | ⟨1, _⟩ => rfl)
  rw [el, er]

end Cert.KernelIdeal.Stages

end
-- ==== Proof.Transform1Value.lean ====
/-
  The second transform's result array: the ten row blocks the grid points write back make up max(a + row, 0.0)·w.

  Grid point t is handed rows 5000·t … 5000·t + 4999 of the aggregated features, the whole weight matrix and the whole
  bias row, and writes back the same rows of the result. What it writes is the block of ONE whole-array function —
  entry (n, q) = ∑ k max (a (n, k) + row (0, k)) 0.0 · w (k, q) — and the ten blocks tile the 50000 rows, so the
  array the region leaves IS that function.
-/
import proofs.«125294_j33964601377214_2_alg».proof.Proof.Gen.KernelIdeal.Frame
import proofs.«125294_j33964601377214_2_alg».proof.Proof.BodyEntries
import proofs.«125294_j33964601377214_2_alg».proof.Proof.LayerSpec
import Idealize.ShloMosaic.Lib.Pipeline.Value

set_option maxRecDepth 16384

noncomputable section

open scoped BigOperators

namespace Cert.KernelIdeal.Transform1

open Cert.KernelIdeal Cert.KernelIdeal.Gen Idealize.ShloMosaic Idealize.ShloMosaic.TcCoe Idealize.SL.Sem
open Idealize.ShloMosaic.ValueIdx
open Idealize.ShloMosaic.Pipeline (Dat)

-- the contents of the TensorCore's buffers when the region is entered
variable (V : (c : Dev nD) → (b : Ref sig .tc) → Buf (Elt Ideal) ((c : Thread nD τ).loc b))

theorem zero_origin : (![0, 0] : Fin 2 → Nat) = fun _ => 0 := funext fun a => by fin_cases a <;> rfl

/-- The block index maps over the ten grid points: point t takes row block t of the features and of the result,
    and always the one block of the weights and of the bias row. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One stored entry against the whole-array specification: entry (p, q) of a block whose rows are rows
    P, P+1, … of the feature array A, whose bias row is R and whose weights are W, is entry (P, q) of the layer. -/
theorem block_entry (A : (⟨2, ![50000, 128]⟩ : Shape).Idx → EReal) (R : (⟨2, ![1, 128]⟩ : Shape).Idx → EReal)
    (W : (⟨2, ![128, 128]⟩ : Shape).Idx → EReal)
    (x0 : FVec Ideal S5000x128 .f32) (x2 : FVec Ideal S1x128 .f32) (x1 : FVec Ideal S128x128 .f32)
    (p : Fin 5000) (q : Fin 128) (P : Fin 50000)
    (h0 : ∀ k : Fin 128, x0 (ix2 p k) = A (ix2 P k))
    (h2 : ∀ k : Fin 128, x2 (ix2 (0 : Fin 1) k) = R (ix2 (0 : Fin 1) k))
    (h1 : ∀ k : Fin 128, x1 (ix2 k q) = W (ix2 k q)) :
    k1_pay1 (F := Ideal) x0 x2 x1 (ix2 p q) = Cert.LayerSpec.rectifiedProduct (Ideal.ofBits .f32 0x00000000#32) A R W (ix2 P q) := by
  rw [Cert.KernelIdeal.BodyEntries.pay1_apply, Cert.LayerSpec.rectifiedProduct_ix2]
  refine Finset.sum_congr rfl fun k _ => ?_
  rw [h0 k, h2 k, h1 k]

/-- WHAT POINT t WRITES BACK is block t of the layer of the arrays as the region finds them. -/
theorem flushed_eq (c : Dev nD) (t : Fin cfg1.N) :
    (dat1 V c).flushed 3 t = ((cfg1.win 3).blk t).view.read (Elt Ideal)
      (Cert.LayerSpec.rectifiedProduct (Ideal.ofBits .f32 0x00000000#32) (V c main_v45) (V c main_v46) (V c main_arg5)) := by
  show (cfg1.win 3).cut (grid1.coords t) ((dat1 V c).after 3 t) = _
  rw [after1_3]
  unfold out1_3
  rw [View.canon_unit_zero zero_origin]
  simp only [View.ld_unit_zero (S := S5000x128) zero_origin, View.ld_unit_zero (S := S1x128) zero_origin,
    View.ld_unit_zero (S := S128x128) zero_origin]
  obtain ⟨e00, e01, e10, e11, e20, e21, e30, e31⟩ := block_indices t
  have ht : t.val < 10 := by have h := t.isLt; have hN : cfg1.N = 10 := N_1; omega
  funext j
  obtain ⟨p, q, rfl⟩ : ∃ (p : Fin 5000) (q : Fin 128), j = ix2 p q := ⟨j 0, j 1, eq_ix2 j⟩
  have hemb : ((cfg1.win 3).blk t).view.emb (ix2 p q)
      = ix2 (⟨t.val * 5000 + p.val, by have := p.isLt; omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 2 t) (iblk1 V c 1 t) (ix2 p q)
    = Cert.LayerSpec.rectifiedProduct (Ideal.ofBits .f32 0x00000000#32) (V c main_v45) (V c main_v46) (V c main_arg5) (((cfg1.win 3).blk t).view.emb (ix2 p q))
  rw [hemb]
  refine block_entry _ _ _ _ _ _ p q _ ?_ ?_ ?_
  · intro k
    show V c main_v45 (((cfg1.win 0).blk t).view.emb (ix2 p k)) = V c main_v45 (ix2 (⟨t.val * 5000 + p.val, by have := p.isLt; omega⟩ : Fin 50000) k)
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v46 (((cfg1.win 2).blk t).view.emb (ix2 (0 : Fin 1) k)) = V c main_v46 (ix2 (0 : Fin 1) k)
    refine congrArg (V c main_v46) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k
    show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega

/-- An index of the result array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- The ten row blocks tile the 50000 rows: row r lies in the block of point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have htl : (i 0).val / 5000 < cfg1.N := by rw [hN]; omega
  obtain ⟨-, -, -, -, -, -, e30, e31⟩ := block_indices ⟨(i 0).val / 5000, htl⟩
  have e30' : win1_3.index ⟨(i 0).val / 5000, htl⟩ (0 : Fin 2) = (i 0).val / 5000 := e30
  refine ⟨⟨(i 0).val / 5000, htl⟩, flush1_3 _, ?_⟩
  rw [mem_blk]
  intro a
  match a with
  | ⟨0, _⟩ =>
    show win1_3.index ⟨(i 0).val / 5000, htl⟩ (0 : Fin 2) * 5000 ≤ (i 0).val ∧ (i 0).val < win1_3.index ⟨(i 0).val / 5000, htl⟩ (0 : Fin 2) * 5000 + 5000
    omega
  | ⟨1, _⟩ =>
    show win1_3.index ⟨(i 0).val / 5000, htl⟩ (1 : Fin 2) * 128 ≤ (i 1).val ∧ (i 1).val < win1_3.index ⟨(i 0).val / 5000, htl⟩ (1 : Fin 2) * 128 + 128
    omega

/-- THE RESULT ARRAY after the region: the layer of the arrays as the region finds them, entry by entry. -/
theorem final (c : Dev nD) :
    (dat1 V c).arrAt 3 cfg1.N = Cert.LayerSpec.rectifiedProduct (Ideal.ofBits .f32 0x00000000#32) (V c main_v45) (V c main_v46) (V c main_arg5) :=
  (dat1 V c).arrAt_eq_of_cover 3 _ (fun t _ => flushed_eq V c t) cover

end Cert.KernelIdeal.Transform1

end
-- ==== Proof.Stage1.lean ====
/-
  Between the two transforms: the first aggregation, and what the second region leaves, against the reference's
  stages.

  After the first region the kernel's host operations gather the transformed rows along the source column, scale
  them by the normalisation and add them up per destination node — the reference's first aggregation, before its
  bias. The second region is handed that sum, the first layer's bias as a row and the second weight matrix, and
  leaves max(sum + bias, 0.0)·w2: the reference adds the bias, rectifies and multiplies, the same operations in the
  same order, entry by entry.
-/
import proofs.«125294_j33964601377214_2_alg».proof.Proof.Stage0
import proofs.«125294_j33964601377214_2_alg».proof.Proof.Transform1Value

set_option maxRecDepth 16384

noncomputable section

open scoped BigOperators

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.HostLine

variable (m : (ℓ : Loc nD τ sig) → Buf (Elt Ideal) ℓ) (ρ : Dev nD → PrngReg)

/-! ## The contents at the second region's entry -/

/-- The first aggregation: the transformed rows gathered along the sources, scaled, summed per destination. -/
theorem entry1_agg (c : Dev nD) :
    (W5 m ρ c (Proc.devRef .tc main_v45) : (⟨S50000x128, .f32⟩ : BufTy).Contents (Elt Ideal))
      = val_main_v43 (F := Ideal) (m ((c : Thread nD τ).loc main_arg0)) (m ((c : Thread nD τ).loc main_arg1)) (m ((c : Thread nD τ).loc main_arg3)) := by
  dsimp only [W5, hostOps1]
  host_results
  have h32 : W4 m ρ c (Proc.devRef .tc main_v32) = (dat0 (V3 m ρ) c).arrAt 3 cfg0.N := W4_arr m ρ c 3
  rw [h32, W4_of_ne m ρ c main_v5 (by decide), W4_of_ne m ρ c main_v6 (by decide), W4_of_ne m ρ c main_v29 (by decide),
    entry0_src, entry0_dst, entry0_norm, transform0_eq]
  -- the reference's stage, opened into its operations down to the four stages both sides now share
  simp only [val_main_v43, val_main_v40, val_main_v39, val_main_v38, val_main_v37, val_main_v36, val_main_v35, val_main_v34, val_main_v33, val_main_c_7, val_main_v32, val_main_v31, val_main_c_6, val_main_v42, val_main_v41, val_main_cst_8]
  -- the four shared stages, as they stand: nothing below opens them
  generalize val_main_v30 (F := Ideal) (m ((c : Thread nD τ).loc main_arg0)) (m ((c : Thread nD τ).loc main_arg3)) = h1
  generalize val_main_v5 (F := Ideal) (m ((c : Thread nD τ).loc main_arg1)) = src
  generalize val_main_v6 (F := Ideal) (m ((c : Thread nD τ).loc main_arg1)) = dst
  generalize val_main_v29 (F := Ideal) (m ((c : Thread nD τ).loc main_arg1)) = nrm
  rfl

/-- The second region's bias operand: the first layer's bias laid out as a row. -/
theorem entry1_row (c : Dev nD) :
    (W5 m ρ c (Proc.devRef .tc main_v46) : (⟨S1x128, .f32⟩ : BufTy).Contents (Elt Ideal))
      = shapeCast S1x128 (m ((c : Thread nD τ).loc main_arg4)) shapeCasts_S128_S1x128 := by
  dsimp only [W5, hostOps1]
  host_results
  rw [W4_of_ne m ρ c main_arg4 (by decide), entry0_arg4]
  all_goals rfl

theorem entry1_arg5 (c : Dev nD) : W5 m ρ c (Proc.devRef .tc main_arg5) = m ((c : Thread nD τ).loc main_arg5) := by
  dsimp only [W5, hostOps1]
  host_results
  rw [W4_of_ne m ρ c main_arg5 (by decide), entry0_arg5]

theorem entry1_arg6 (c : Dev nD) : W5 m ρ c (Proc.devRef .tc main_arg6) = m ((c : Thread nD τ).loc main_arg6) := by
  dsimp only [W5, hostOps1]
  host_results
  rw [W4_of_ne m ρ c main_arg6 (by decide), entry0_arg6]

theorem entry1_arg2 (c : Dev nD) : W5 m ρ c (Proc.devRef .tc main_arg2) = m ((c : Thread nD τ).loc main_arg2) := by
  dsimp only [W5, hostOps1]
  host_results
  rw [W4_of_ne m ρ c main_arg2 (by decide), entry0_arg2]

theorem entry1_src (c : Dev nD) :
    (W5 m ρ c (Proc.devRef .tc main_v5) : (⟨S850000, .i32⟩ : BufTy).Contents (Elt Ideal))
      = val_main_v5 (F := Ideal) (m ((c : Thread nD τ).loc main_arg1)) := by
  dsimp only [W5, hostOps1]
  host_results
  rw [W4_of_ne m ρ c main_v5 (by decide), entry0_src]

theorem entry1_dst (c : Dev nD) :
    (W5 m ρ c (Proc.devRef .tc main_v6) : (⟨S850000, .i32⟩ : BufTy).Contents (Elt Ideal))
      = val_main_v6 (F := Ideal) (m ((c : Thread nD τ).loc main_arg1)) := by
  dsimp only [W5, hostOps1]
  host_results
  rw [W4_of_ne m ρ c main_v6 (by decide), entry0_dst]

theorem entry1_norm (c : Dev nD) :
    (W5 m ρ c (Proc.devRef .tc main_v29) : (⟨S850000, .f32⟩ : BufTy).Contents (Elt Ideal))
      = val_main_v29 (F := Ideal) (m ((c : Thread nD τ).loc main_arg1)) := by
  dsimp only [W5, hostOps1]
  host_results
  rw [W4_of_ne m ρ c main_v29 (by decide), entry0_norm]

/-! ## What the second region leaves -/

/-- THE SECOND TRANSFORM'S RESULT is the reference's product relu(sum + bias)·w2. -/
theorem transform1_eq (c : Dev nD) :
    ((dat1 (V5 m ρ) c).arrAt 3 cfg1.N : (⟨S50000x128, .f32⟩ : BufTy).Contents (Elt Ideal))
      = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [Cert.KernelIdeal.Transform1.final]
  show Cert.LayerSpec.rectifiedProduct (Ideal.ofBits .f32 0x00000000#32) (W5 m ρ c (Proc.devRef .tc main_v45))
    (W5 m ρ c (Proc.devRef .tc main_v46)) (W5 m ρ c (Proc.devRef .tc main_arg5)) = _
  rw [entry1_agg, entry1_row, entry1_arg5]
  funext i
  obtain ⟨p, q, rfl⟩ : ∃ (p : Fin 50000) (q : Fin 128), i = ix2 p q := ⟨i 0, i 1, eq_ix2 i⟩
  rw [Cert.LayerSpec.rectifiedProduct_ix2, val_main_v74_apply]
  refine Finset.sum_congr rfl fun k _ => ?_
  have el : lidx_main_v74 (ix2 p q) k = ix2 p k := funext fun a => Fin.ext (by
    match a with
    | ⟨0, _⟩ => rfl
    | ⟨1, _⟩ => rfl)
  have er : ridx_main_v74 (ix2 p q) k = ix2 k q := funext fun a => Fin.ext (by
    match a with
    | ⟨0, _⟩ => rfl
    | ⟨1, _⟩ => rfl)
  have eb : idx_main_v44 (idx_main_v45 (ix2 p k)) = ix1 k := funext fun a => Fin.ext (by
    match a with
    | ⟨0, _⟩ => rfl)
  rw [el, er, val_main_v47_apply, val_main_v46_apply, val_main_v45_apply, val_main_v44_apply, val_main_call1_v0_apply,
    val_main_call1_cst_apply, eb, shapeCast_a_1a_apply]
  rfl

end Cert.KernelIdeal.Stages

end
-- ==== Proof.RefAgain.lean ====
/-
  The reference computes its edge data twice, once per layer, by the same operations from the same edge list:
  the source and destination columns with the self loops appended, and the symmetric normalisation. The second
  computation is the first, stage for stage.
-/
import proofs.«125294_j33964601377214_2_alg».proof.Proof.RefRead

set_option maxRecDepth 16384

noncomputable section

namespace Cert.ReferenceIdeal.Again

open Cert.ReferenceIdeal Cert.ReferenceIdeal.ReadP Idealize.ShloMosaic

variable {F : FTy → Type} [FloatOps F]

/-- The second layer's source column is the first layer's. -/
theorem src_again (x1 : (⟨S2x800000, .i32⟩ : BufTy).Contents (Elt F)) :
    val_main_v49 (F := F) x1 = val_main_v5 (F := F) x1 := by
  simp only [val_main_v49, val_main_v48, val_main_v1, val_main_v0, val_main_v5, val_main_v4]
  all_goals rfl

/-- The second layer's destination column is the first layer's. -/
theorem dst_again (x1 : (⟨S2x800000, .i32⟩ : BufTy).Contents (Elt F)) :
    val_main_v50 (F := F) x1 = val_main_v6 (F := F) x1 := by
  simp only [val_main_v50, val_main_v48, val_main_v3, val_main_v2, val_main_v6, val_main_v4]
  all_goals rfl

/-- The second layer's normalisation is the first layer's. -/
theorem norm_again (x1 : (⟨S2x800000, .i32⟩ : BufTy).Contents (Elt F)) :
    val_main_v73 (F := F) x1 = val_main_v29 (F := F) x1 := by
  simp only [val_main_v73, val_main_v72, val_main_v71, val_main_v70, val_main_v50, val_main_v48, val_main_v3, val_main_v2, val_main_v69, val_main_v68, val_main_c_16, val_main_v67, val_main_v66, val_main_c_15, val_main_v58, val_main_call2_v1, val_main_call2_v0, val_main_cst_12, val_main_v57, val_main_v54, val_main_v51, val_main_cst_9, val_main_v53, val_main_v52, val_main_cst_10, val_main_v56, val_main_v55, val_main_cst_11, val_main_v65, val_main_v64, val_main_v63, val_main_v49, val_main_v1, val_main_v0, val_main_v62, val_main_v61, val_main_c_14, val_main_v60, val_main_v59, val_main_c_13, val_main_v29, val_main_v28, val_main_v27, val_main_v26, val_main_v6, val_main_v4, val_main_v25, val_main_v24, val_main_c_5, val_main_v23, val_main_v22, val_main_c_4, val_main_v14, val_main_call0_v1, val_main_call0_v0, val_main_cst_2, val_main_v13, val_main_v10, val_main_v7, val_main_cst, val_main_v9, val_main_v8, val_main_cst_0, val_main_v12, val_main_v11, val_main_cst_1, val_main_v21, val_main_v20, val_main_v19, val_main_v5, val_main_v18, val_main_v17, val_main_c_3, val_main_v16, val_main_v15, val_main_c]
  all_goals rfl

end Cert.ReferenceIdeal.Again

end
-- ==== Proof.Stage2.lean ====
/-
  After the second transform: the second aggregation, its bias and the decoder, against the reference's result.

  The last stretch of the kernel's host operations aggregates the second transform's rows as the first time, adds the
  second bias, gathers the two end points of every labelled edge, takes their inner product over the 128 features and
  applies the logistic function 1 / (1 + exp (−s)). The reference does the same to the same values; it recomputes
  the self-looped columns and the normalisation for its second layer, by the same operations from the same edge list.
-/
import proofs.«125294_j33964601377214_2_alg».proof.Proof.Stage1
import proofs.«125294_j33964601377214_2_alg».proof.Proof.RefAgain

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.HostLine

variable (m : (ℓ : Loc nD τ sig) → Buf (Elt Ideal) ℓ) (ρ : Dev nD → PrngReg)

set_option maxHeartbeats 4000000 in
/-- THE KERNEL'S RESULT is the reference's last stage of the seven arguments. -/
theorem result_eq (c : Dev nD) :
    (W7 m ρ c (Proc.devRef .tc main_v89) : (⟨S200000, .f32⟩ : BufTy).Contents (Elt Ideal))
      = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W7, hostOps2]
  host_results
  have h47 : W6 m ρ c (Proc.devRef .tc main_v47) = (dat1 (V5 m ρ) c).arrAt 3 cfg1.N := W6_arr m ρ c 3
  rw [h47, W6_of_ne m ρ c main_v5 (by decide), W6_of_ne m ρ c main_v6 (by decide), W6_of_ne m ρ c main_v29 (by decide),
    W6_of_ne m ρ c main_arg6 (by decide), W6_of_ne m ρ c main_arg2 (by decide),
    entry1_src, entry1_dst, entry1_norm, entry1_arg6, entry1_arg2, transform1_eq]
  -- the reference's last stage, opened into its operations down to the second transform; its second computation of
  -- the columns and of the normalisation is its first
  simp only [val_main_v116, val_main_v114, val_main_v112, val_main_v111, val_main_v110, val_main_cst_24, val_main_v109, val_main_v108, val_main_v107, val_main_v106, val_main_v94, val_main_v93, val_main_v105, val_main_v104, val_main_c_23, val_main_v103, val_main_v102, val_main_c_22, val_main_v90, val_main_v89, val_main_v88, val_main_v87, val_main_v84, val_main_v83, val_main_v82, val_main_v81, val_main_v80, val_main_v79, val_main_v78, val_main_v77, val_main_c_18, val_main_v76, val_main_v75, val_main_c_17, val_main_v86, val_main_v85, val_main_cst_19, val_main_v101, val_main_v100, val_main_v99, val_main_v92, val_main_v91, val_main_v98, val_main_v97, val_main_c_21, val_main_v96, val_main_v95, val_main_c_20, val_main_v113, val_main_cst_25, val_main_v115, val_main_cst_26,
    Cert.ReferenceIdeal.Again.src_again, Cert.ReferenceIdeal.Again.dst_again, Cert.ReferenceIdeal.Again.norm_again]
  -- the four shared stages, as they stand: nothing below opens them
  generalize val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) = h2
  generalize val_main_v5 (F := Ideal) (m ((c : Thread nD τ).loc main_arg1)) = src
  generalize val_main_v6 (F := Ideal) (m ((c : Thread nD τ).loc main_arg1)) = dst
  generalize val_main_v29 (F := Ideal) (m ((c : Thread nD τ).loc main_arg1)) = nrm
  rfl

end Cert.KernelIdeal.Stages

end
-- ==== Proof.lean ====
/-
  A two-layer graph-convolution link predictor, its transforms on the matrix unit, against its plain reference.

  Both programs compute, for 50000 nodes with 128 features, 800000 edges and 200000 labelled edges,
      z1 = A (x·w1) + b1,   z2 = A (relu z1 · w2) + b2,   prob = logistic (∑_f z2[ls, f] · z2[ld, f]),
  where A gathers rows along the source column (self loops appended), scales row e by the symmetric normalisation
  d[src e] · d[dst e] with d = where(deg > 0, rsqrt deg, 0), and adds the rows up per destination node.
  The kernel's program computes the two dense transforms in ten row blocks each on the matrix unit — the first as
  (x + 0)·w1 with a bias row of zeros, the second with the bias and the rectifier fused in as max(a + b1, 0.0)·w2 — and
  everything else by the very host operations of the reference, which only recomputes the normalisation for its
  second layer. On the extended reals the roundings on the way into the matrix unit are the identity, a block
  product into a zero accumulator is the plain sum over the contracted feature, and x + 0 = x; nothing is
  distributed or cancelled, so no finiteness of the inputs is used.

  The pieces: LayerSpec (the two transforms entry by entry), BodyEntries (what a grid point stores, at an entry),
  Transform0Value / Transform1Value (the ten blocks make up the whole array), KernelRun (the kernel's run with its
  result named), Stage0 / Stage1 / Stage2 (the kernel's host stretches and regions against the reference's stages),
  RefRun / RefRead (the reference's run and its stages), RefAgain (its second computation of the edge data is its
  first), LibHostResults (reading a line of host operations), LibPlainDot (a plain matrix product at an entry).
-/
import proofs.«125294_j33964601377214_2_alg».proof.Defs
import proofs.«125294_j33964601377214_2_alg».proof.Proof.Gen.Kernel
import proofs.«125294_j33964601377214_2_alg».proof.Proof.Gen.Kernel.Frame
import proofs.«125294_j33964601377214_2_alg».proof.Proof.Gen.KernelIdeal
import proofs.«125294_j33964601377214_2_alg».proof.Proof.Gen.KernelIdeal.Frame
import proofs.«125294_j33964601377214_2_alg».proof.Proof.Gen.ReferenceIdeal
import proofs.«125294_j33964601377214_2_alg».proof.Proof.Gen.Pre_finite_inputs
import proofs.«125294_j33964601377214_2_alg».proof.Proof.RefRun
import proofs.«125294_j33964601377214_2_alg».proof.Proof.RefRead
import proofs.«125294_j33964601377214_2_alg».proof.Proof.KernelRun
import proofs.«125294_j33964601377214_2_alg».proof.Proof.Stage2

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the seven arguments both programs end with the reference's last stage of those
    arguments in their result buffers: the kernel's by the chain of its stretches and regions, the reference's by its
    run read stage by stage. -/
theorem algebraic : Cert.algebraic_KernelIdeal_ReferenceIdeal := by
  intro m ρ m' ρ' _ hagree
  refine ⟨fun c => Cert.ReferenceIdeal.ReadP.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6⟩ := hagree c
    rw [Cert.ReferenceIdeal.ReadP.val_main_v116_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
